-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 68
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result array named.

  The program is a chain of eight segments: five stretches of host operations, the fused two-matmul region, one more
  stretch of host operations (the column statistics of the first region's output), and the normalisation region.
  The contents of every buffer at each boundary are a fold from the launch memory (`Gen.W0` … `Gen.W8`), and the
  generated frame proves the chain runs from `W0` to `W8`.  Here the same chain is read once more at the result
  buffer: after the run it holds `W8` at that buffer, beside the argument arrays which end as launched.
-/
import proofs.«123874_j30210799960859_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer then holds the last boundary's contents
    at that buffer, and every argument array is as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Hand

end
-- ==== Proof.HostReads.lean ====
/-
  What the two regions find in their operand arrays.

  Before the fused region the program computes, on the host, the out- and in-degrees of the nodes (a scatter of ones,
  clamped below at one), the features scaled by the reciprocal root of the out-degree, their gather along the source
  indices scattered onto the destination indices, and the reciprocal root of the in-degree; the degree vector and the
  two bias vectors are re-laid as a column and as rows.  Between the regions it computes the column mean and the
  column variance of the first region's output and re-lays them, the scale and the shift as rows.  Each of these
  buffers is read here at the boundary where a region starts, as a term of the argument arrays (or, between the
  regions, of the first region's output).
-/
import proofs.«123874_j30210799960859_2_alg».proof.Proof.Gen.KernelIdeal.Frame
import proofs.«123874_j30210799960859_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- The clamp of the out-degree below at one, as plain operations on its buffers. -/
theorem clamp_out_ops : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.binary main_call0_v1 main_v3 main_v4 (maximumf (F := Ideal) (φ := .f32) : (⟨S50000, .f32⟩ : BufTy).Contents (Elt Ideal) → (⟨S50000, .f32⟩ : BufTy).Contents (Elt Ideal) → (⟨S50000, .f32⟩ : BufTy).Contents (Elt Ideal)) ] := rfl

/-- The clamp of the in-degree below at one, as plain operations on its buffers. -/
theorem clamp_in_ops : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.binary main_call1_v1 main_v7 main_v8 (maximumf (F := Ideal) (φ := .f32) : (⟨S50000, .f32⟩ : BufTy).Contents (Elt Ideal) → (⟨S50000, .f32⟩ : BufTy).Contents (Elt Ideal) → (⟨S50000, .f32⟩ : BufTy).Contents (Elt Ideal)) ] := rfl

/-! ## At the fused region's entry -/

set_option maxHeartbeats 4000000 in
/-- The aggregated messages: the features scaled by the reciprocal root of the clamped out-degree, gathered along the
    source indices and summed onto the destination indices. -/
theorem entry0_agg (c : Dev nD) :
    W5 m ρ c (Proc.devRef .tc main_v22) = Cert.ReferenceIdeal.Read.val_main_v22 (F := Ideal) (m ((c : Thread nD τ).loc main_arg0)) (m ((c : Thread nD τ).loc main_arg1)) (m ((c : Thread nD τ).loc main_arg2)) := by
  dsimp only [W5, W4, W3, W2, W1]
  rw [clamp_out_ops, clamp_in_ops]
  after_results_simp
  rfl

/-- The reciprocal root of the clamped in-degree, laid out as a column. -/
theorem entry0_dinv (c : Dev nD) :
    W5 m ρ c (Proc.devRef .tc main_v24) = shapeCast S50000x1 (Cert.ReferenceIdeal.Read.val_main_v23 (F := Ideal) (m ((c : Thread nD τ).loc main_arg2))) shapeCasts_S50000_S50000x1 := by
  dsimp only [W5, W4, W3, W2, W1]
  rw [clamp_out_ops, clamp_in_ops]
  after_results
  rfl

/-- The first bias, laid out as a row. -/
theorem entry0_bias (c : Dev nD) :
    W5 m ρ c (Proc.devRef .tc main_v25) = shapeCast S1x128 (m ((c : Thread nD τ).loc main_arg4)) shapeCasts_S128_S1x128 := by
  dsimp only [W5, W4, W3, W2, W1]
  rw [clamp_out_ops, clamp_in_ops]
  after_results
  rfl

/-- The second bias, laid out as a row. -/
theorem entry0_rbias (c : Dev nD) :
    W5 m ρ c (Proc.devRef .tc main_v26) = shapeCast S1x128 (m ((c : Thread nD τ).loc main_arg6)) shapeCasts_S128_S1x128 := by
  dsimp only [W5, W4, W3, W2, W1]
  rw [clamp_out_ops, clamp_in_ops]
  after_results
  rfl

/-- The argument arrays are as launched when the fused region starts. -/
theorem entry0_feat (c : Dev nD) : W5 m ρ c (Proc.devRef .tc main_arg0) = (m ((c : Thread nD τ).loc main_arg0)) := by
  dsimp only [W5, W4, W3, W2, W1]
  rw [clamp_out_ops, clamp_in_ops]
  after_results
theorem entry0_w (c : Dev nD) : W5 m ρ c (Proc.devRef .tc main_arg3) = (m ((c : Thread nD τ).loc main_arg3)) := by
  dsimp only [W5, W4, W3, W2, W1]
  rw [clamp_out_ops, clamp_in_ops]
  after_results
theorem entry0_wr (c : Dev nD) : W5 m ρ c (Proc.devRef .tc main_arg5) = (m ((c : Thread nD τ).loc main_arg5)) := by
  dsimp only [W5, W4, W3, W2, W1]
  rw [clamp_out_ops, clamp_in_ops]
  after_results
theorem entry0_scale (c : Dev nD) : W5 m ρ c (Proc.devRef .tc main_arg7) = (m ((c : Thread nD τ).loc main_arg7)) := by
  dsimp only [W5, W4, W3, W2, W1]
  rw [clamp_out_ops, clamp_in_ops]
  after_results
theorem entry0_shift (c : Dev nD) : W5 m ρ c (Proc.devRef .tc main_arg8) = (m ((c : Thread nD τ).loc main_arg8)) := by
  dsimp only [W5, W4, W3, W2, W1]
  rw [clamp_out_ops, clamp_in_ops]
  after_results

/-! ## At the normalisation region's entry -/

/-- The mean of each column of a `[50000, 128]` array: the column's sum over 50000. -/
def colMean (Y : FVec Ideal S50000x128 .f32) : FVec Ideal S128 .f32 :=
  Host.divf (Host.reduceAdd Y (constant S_ .f32 0x00000000#32) reducesTo_S50000x128_S128_d0 h_S_)
    (broadcastInDim S128 ![] bcast_S_S128 (constant S_ .f32 0x47435000#32))

/-- The variance of each column: the mean of the squared differences from the column's mean. -/
def colVar (Y : FVec Ideal S50000x128 .f32) : FVec Ideal S128 .f32 :=
  Host.divf (Host.reduceAdd
      (mulf (subf Y (broadcastInDim S50000x128 ![0, 1] bcast_S1x128_S50000x128_0_1 (broadcastInDim S1x128 ![1] bcast_S128_S1x128_1 (colMean Y))))
            (subf Y (broadcastInDim S50000x128 ![0, 1] bcast_S1x128_S50000x128_0_1 (broadcastInDim S1x128 ![1] bcast_S128_S1x128_1 (colMean Y)))))
      (constant S_ .f32 0x00000000#32) reducesTo_S50000x128_S128_d0 h_S_)
    (broadcastInDim S128 ![] bcast_S_S128 (constant S_ .f32 0x47435000#32))

/-- The host operations between the regions leave the first region's output in place. -/
theorem entry1_y (c : Dev nD) : W7 m ρ c (Proc.devRef .tc main_v27) = W6 m ρ c (Proc.devRef .tc main_v27) := by
  dsimp only [W7]
  after_results

/-- The column mean of the first region's output, laid out as a row. -/
theorem entry1_mean (c : Dev nD) :
    W7 m ρ c (Proc.devRef .tc main_v38) = shapeCast S1x128 (colMean (W6 m ρ c (Proc.devRef .tc main_v27))) shapeCasts_S128_S1x128 := by
  dsimp only [W7]
  after_results
  rfl

/-- The column variance of the first region's output, laid out as a row. -/
theorem entry1_var (c : Dev nD) :
    W7 m ρ c (Proc.devRef .tc main_v39) = shapeCast S1x128 (colVar (W6 m ρ c (Proc.devRef .tc main_v27))) shapeCasts_S128_S1x128 := by
  dsimp only [W7]
  after_results
  rfl

/-- The scale and the shift, laid out as rows. -/
theorem entry1_scale (c : Dev nD) :
    W7 m ρ c (Proc.devRef .tc main_v40) = shapeCast S1x128 (W6 m ρ c (Proc.devRef .tc main_arg7)) shapeCasts_S128_S1x128 := by
  dsimp only [W7]
  after_results
  rfl
theorem entry1_shift (c : Dev nD) :
    W7 m ρ c (Proc.devRef .tc main_v41) = shapeCast S1x128 (W6 m ρ c (Proc.devRef .tc main_arg8)) shapeCasts_S128_S1x128 := by
  dsimp only [W7]
  after_results
  rfl

/-- The fused region writes neither the scale nor the shift. -/
theorem mid_scale (c : Dev nD) : W6 m ρ c (Proc.devRef .tc main_arg7) = (m ((c : Thread nD τ).loc main_arg7)) :=
  (W6_of_ne m ρ c main_arg7 (by decide)).trans (entry0_scale m ρ c)
theorem mid_shift (c : Dev nD) : W6 m ρ c (Proc.devRef .tc main_arg8) = (m ((c : Thread nD τ).loc main_arg8)) :=
  (W6_of_ne m ρ c main_arg8 (by decide)).trans (entry0_shift m ρ c)

end Cert.KernelIdeal.Hand

end
-- ==== Proof.FusedRegion.lean ====
/-
  The fused region, read as one function of whole arrays.

  The region walks the rows of two [50000, 128] arrays (the aggregated messages and the node features) and of a
  [50000, 1] column (the reciprocal root of the in-degree) in 25 blocks of 2000 rows; the two [128, 128] weight
  matrices and the two [1, 128] bias rows are the same block at every point.  At row `r` and column `j` the body stores
  `max (Σₖ (agg[r, k] * dinv[r, 0]) * W[k, j] + b[0, j]) 0 + max (Σₖ feat[r, k] * Wr[k, j] + br[0, j]) 0`:
  a product into a zero accumulator is, on exact values, the plain sum over the contracted axis.  The blocks tile the
  output array, so after the region it is that function of the seven arrays the region found, index by index.
-/
import proofs.«123874_j30210799960859_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

theorem zero_offsets' : (![0, 0] : Fin 2 → Nat) = fun _ => 0 := funext fun a => by fin_cases a <;> rfl

/-- One entry of the fused layer: the rescaled row of messages against a column of the first weight matrix plus its
    bias, clamped at zero, plus the row of features against a column of the second weight matrix plus its bias,
    clamped at zero. -/
def fusedFun (A X : S50000x128.Idx → EReal) (D : S50000x1.Idx → EReal) (W : S128x128.Idx → EReal) (B : S1x128.Idx → EReal)
    (Wr : S128x128.Idx → EReal) (Br : S1x128.Idx → EReal) : S50000x128.Idx → EReal :=
  fun i =>
    max ((∑ k : Fin 128, (A (ix2 (⟨(i 0).val, (i 0).isLt⟩ : Fin 50000) k) * D (ix2 (⟨(i 0).val, (i 0).isLt⟩ : Fin 50000) (0 : Fin 1))) * W (ix2 k (⟨(i 1).val, (i 1).isLt⟩ : Fin 128)))
          + B (ix2 (0 : Fin 1) (⟨(i 1).val, (i 1).isLt⟩ : Fin 128))) (Ideal.ofBits .f32 0x00000000#32)
    + max ((∑ k : Fin 128, X (ix2 (⟨(i 0).val, (i 0).isLt⟩ : Fin 50000) k) * Wr (ix2 k (⟨(i 1).val, (i 1).isLt⟩ : Fin 128)))
          + Br (ix2 (0 : Fin 1) (⟨(i 1).val, (i 1).isLt⟩ : Fin 128))) (Ideal.ofBits .f32 0x00000000#32)

/-- The fused layer at row `r` and column `q`. -/
theorem fusedFun_apply (A X : S50000x128.Idx → EReal) (D : S50000x1.Idx → EReal) (W : S128x128.Idx → EReal) (B : S1x128.Idx → EReal)
    (Wr : S128x128.Idx → EReal) (Br : S1x128.Idx → EReal) (r : Fin 50000) (q : Fin 128) :
    fusedFun A X D W B Wr Br (ix2 r q)
      = max ((∑ k : Fin 128, (A (ix2 r k) * D (ix2 r (0 : Fin 1))) * W (ix2 k q)) + B (ix2 (0 : Fin 1) q)) (Ideal.ofBits .f32 0x00000000#32)
        + max ((∑ k : Fin 128, X (ix2 r k) * Wr (ix2 k q)) + Br (ix2 (0 : Fin 1) q)) (Ideal.ofBits .f32 0x00000000#32) := rfl

/-- A column broadcast along its rows reads, at `(p, c)`, the column's entry in row `p`. -/
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

local notation "D₀" => dot_S2000x128_S128x128_S2000x128_1_0_0_1_n_n

/-- The left operand's row coordinate at an output entry is the entry's row. -/
theorem matmul_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right operand's column coordinate at an output entry is the entry's column. -/
theorem matmul_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at one entry: the sum over the contracted axis. -/
theorem matmul_zero_apply (l : FVec Ideal S2000x128 .f32) (r : FVec Ideal S128x128 .f32) (p : Fin 2000) (q : Fin 128) :
    matmul dot_S2000x128_S128x128_S2000x128_1_0_0_1_n_n (some .fp32) l r (constant S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact matmul_lhs_row _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact matmul_rhs_col _ _)
  rw [el, er]

/-- The body's arithmetic at one entry of a block. -/
theorem fused_payload_apply (v0 : Vec Ideal S2000x128 .f32) (v2 : Vec Ideal S2000x1 .f32) (v6 : Vec Ideal S2000x128 .f32)
    (v7 v8 : Vec Ideal S128x128 .f32) (v10 v17 : Vec Ideal S1x128 .f32) (p : Fin 2000) (q : Fin 128) :
    k0_pay1 v0 v2 v6 v7 v8 v10 v17 (ix2 p q)
      = max ((∑ k : Fin 128, (v0 (ix2 p k) * v2 (ix2 p (0 : Fin 1))) * v7 (ix2 k q)) + v10 (ix2 (0 : Fin 1) q)) (Ideal.ofBits .f32 0x00000000#32)
        + max ((∑ k : Fin 128, v6 (ix2 p k) * v8 (ix2 k q)) + v17 (ix2 (0 : Fin 1) q)) (Ideal.ofBits .f32 0x00000000#32) := by
  unfold k0_pay1
  simp only [shapeCast_self]
  simp only [addf_apply, maximumf_apply, broadcast_apply]
  rw [broadcastTo_1b_ab_apply, broadcastTo_1b_ab_apply, matmul_zero_apply, matmul_zero_apply]
  simp only [mulf_apply, broadcastTo_col_apply]
  rfl

/-- What the body leaves in the output's staging buffer, at one entry. -/
theorem fused_out_apply (x0 x1 : Vec Ideal S2000x128 .f32) (x2 : Vec Ideal S2000x1 .f32) (x3 : Vec Ideal S128x128 .f32) (x4 : Vec Ideal S1x128 .f32)
    (x5 : Vec Ideal S128x128 .f32) (x6 : Vec Ideal S1x128 .f32) (j : S2000x128.Idx) :
    out0_7 x0 x1 x2 x3 x4 x5 x6 j
      = max ((∑ k : Fin 128, (x0 (ix2 (⟨(j 0).val, (j 0).isLt⟩ : Fin 2000) k) * x2 (ix2 (⟨(j 0).val, (j 0).isLt⟩ : Fin 2000) (0 : Fin 1))) * x3 (ix2 k (⟨(j 1).val, (j 1).isLt⟩ : Fin 128))) + x4 (ix2 (0 : Fin 1) (⟨(j 1).val, (j 1).isLt⟩ : Fin 128))) (Ideal.ofBits .f32 0x00000000#32)
        + max ((∑ k : Fin 128, x1 (ix2 (⟨(j 0).val, (j 0).isLt⟩ : Fin 2000) k) * x5 (ix2 k (⟨(j 1).val, (j 1).isLt⟩ : Fin 128))) + x6 (ix2 (0 : Fin 1) (⟨(j 1).val, (j 1).isLt⟩ : Fin 128))) (Ideal.ofBits .f32 0x00000000#32) := by
  unfold out0_7
  rw [View.canon_unit_zero zero_offsets']
  simp only [View.ld_unit_zero (S := S2000x128) zero_offsets', View.ld_unit_zero (S := S2000x1) zero_offsets', View.ld_unit_zero (S := S128x128) zero_offsets', View.ld_unit_zero (S := S1x128) zero_offsets']
  obtain ⟨p, q, rfl⟩ : ∃ (p : Fin 2000) (q : Fin 128), j = ix2 p q := ⟨j 0, j 1, eq_ix2 j⟩
  exact fused_payload_apply x0 x2 x1 x3 x5 x4 x6 p q

/-- The printed index maps over the grid: the row-blocked windows sit at block `(t, 0)`, the weights and biases at `(0, 0)`. -/
theorem fused_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point `t` writes back is block `t` of the fused layer of the arrays the region found. -/
theorem fused_flushed (c : Dev nD) (t : Fin cfg0.N) :
    (dat0 V c).flushed 7 t = ((cfg0.win 7).blk t).view.read (Elt Ideal)
      (fusedFun (V c main_v22) (V c main_arg0) (V c main_v24) (V c main_arg3) (V c main_v25) (V c main_arg5) (V c main_v26)) := by
  show (cfg0.win 7).cut (grid0.coords t) ((dat0 V c).after 7 t) = _
  rw [after0_7]
  obtain ⟨a0, a1, b0, b1, c0, c1, d0, d1, e0, e1, f0, f1, g0, g1, h0, h1⟩ := fused_index_facts t
  funext j
  show out0_7 (iblk0 V c 0 t) (iblk0 V c 1 t) (iblk0 V c 2 t) (iblk0 V c 3 t) (iblk0 V c 4 t) (iblk0 V c 5 t) (iblk0 V c 6 t) j
    = fusedFun (V c main_v22) (V c main_arg0) (V c main_v24) (V c main_arg3) (V c main_v25) (V c main_arg5) (V c main_v26) (((cfg0.win 7).blk t).view.emb j)
  refine (fused_out_apply (iblk0 V c 0 t) (iblk0 V c 1 t) (iblk0 V c 2 t) (iblk0 V c 3 t) (iblk0 V c 4 t) (iblk0 V c 5 t) (iblk0 V c 6 t) j).trans ?_
  have hA : ∀ k : Fin 128, iblk0 V c 0 t (ix2 (⟨(j 0).val, (j 0).isLt⟩ : Fin 2000) k) = V c main_v22 (ix2 (⟨((((cfg0.win 7).blk t).view.emb j) 0).val, ((((cfg0.win 7).blk t).view.emb j) 0).isLt⟩ : Fin 50000) k) := by
    intro k
    unfold iblk0
    rw [View.read_apply]
    show V c main_v22 (((cfg0.win 0).blk t).view.emb (ix2 (⟨(j 0).val, (j 0).isLt⟩ : Fin 2000) k)) = _
    refine congrArg (V c main_v22) (funext fun a => Fin.ext ?_)
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 128 + 1 * k.val = k.val; omega
  have hX : ∀ k : Fin 128, iblk0 V c 1 t (ix2 (⟨(j 0).val, (j 0).isLt⟩ : Fin 2000) k) = V c main_arg0 (ix2 (⟨((((cfg0.win 7).blk t).view.emb j) 0).val, ((((cfg0.win 7).blk t).view.emb j) 0).isLt⟩ : Fin 50000) k) := by
    intro k
    unfold iblk0
    rw [View.read_apply]
    show V c main_arg0 (((cfg0.win 1).blk t).view.emb (ix2 (⟨(j 0).val, (j 0).isLt⟩ : Fin 2000) k)) = _
    refine congrArg (V c main_arg0) (funext fun a => Fin.ext ?_)
    match a with
    | ⟨0, _⟩ => show win0_1.index t (0 : Fin 2) * 2000 + 1 * (j 0).val = win0_7.index t (0 : Fin 2) * 2000 + 1 * (j 0).val; omega
    | ⟨1, _⟩ => show win0_1.index t (1 : Fin 2) * 128 + 1 * k.val = k.val; omega
  have hD : iblk0 V c 2 t (ix2 (⟨(j 0).val, (j 0).isLt⟩ : Fin 2000) (0 : Fin 1)) = V c main_v24 (ix2 (⟨((((cfg0.win 7).blk t).view.emb j) 0).val, ((((cfg0.win 7).blk t).view.emb j) 0).isLt⟩ : Fin 50000) (0 : Fin 1)) := by
    unfold iblk0
    rw [View.read_apply]
    show V c main_v24 (((cfg0.win 2).blk t).view.emb (ix2 (⟨(j 0).val, (j 0).isLt⟩ : Fin 2000) (0 : Fin 1))) = _
    refine congrArg (V c main_v24) (funext fun a => Fin.ext ?_)
    match a with
    | ⟨0, _⟩ => show win0_2.index t (0 : Fin 2) * 2000 + 1 * (j 0).val = win0_7.index t (0 : Fin 2) * 2000 + 1 * (j 0).val; omega
    | ⟨1, _⟩ => show win0_2.index t (1 : Fin 2) * 1 + 1 * 0 = 0; omega
  have hW : ∀ k : Fin 128, iblk0 V c 3 t (ix2 k (⟨(j 1).val, (j 1).isLt⟩ : Fin 128)) = V c main_arg3 (ix2 k (⟨((((cfg0.win 7).blk t).view.emb j) 1).val, ((((cfg0.win 7).blk t).view.emb j) 1).isLt⟩ : Fin 128)) := by
    intro k
    unfold iblk0
    rw [View.read_apply]
    show V c main_arg3 (((cfg0.win 3).blk t).view.emb (ix2 k (⟨(j 1).val, (j 1).isLt⟩ : Fin 128))) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_7.index t (1 : Fin 2) * 128 + 1 * (j 1).val; omega
  have hB : iblk0 V c 4 t (ix2 (0 : Fin 1) (⟨(j 1).val, (j 1).isLt⟩ : Fin 128)) = V c main_v25 (ix2 (0 : Fin 1) (⟨((((cfg0.win 7).blk t).view.emb j) 1).val, ((((cfg0.win 7).blk t).view.emb j) 1).isLt⟩ : Fin 128)) := by
    unfold iblk0
    rw [View.read_apply]
    show V c main_v25 (((cfg0.win 4).blk t).view.emb (ix2 (0 : Fin 1) (⟨(j 1).val, (j 1).isLt⟩ : Fin 128))) = _
    refine congrArg (V c main_v25) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_7.index t (1 : Fin 2) * 128 + 1 * (j 1).val; omega
  have hWr : ∀ k : Fin 128, iblk0 V c 5 t (ix2 k (⟨(j 1).val, (j 1).isLt⟩ : Fin 128)) = V c main_arg5 (ix2 k (⟨((((cfg0.win 7).blk t).view.emb j) 1).val, ((((cfg0.win 7).blk t).view.emb j) 1).isLt⟩ : Fin 128)) := by
    intro k
    unfold iblk0
    rw [View.read_apply]
    show V c main_arg5 (((cfg0.win 5).blk t).view.emb (ix2 k (⟨(j 1).val, (j 1).isLt⟩ : Fin 128))) = _
    refine congrArg (V c main_arg5) (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_7.index t (1 : Fin 2) * 128 + 1 * (j 1).val; omega
  have hBr : iblk0 V c 6 t (ix2 (0 : Fin 1) (⟨(j 1).val, (j 1).isLt⟩ : Fin 128)) = V c main_v26 (ix2 (0 : Fin 1) (⟨((((cfg0.win 7).blk t).view.emb j) 1).val, ((((cfg0.win 7).blk t).view.emb j) 1).isLt⟩ : Fin 128)) := by
    unfold iblk0
    rw [View.read_apply]
    show V c main_v26 (((cfg0.win 6).blk t).view.emb (ix2 (0 : Fin 1) (⟨(j 1).val, (j 1).isLt⟩ : Fin 128))) = _
    refine congrArg (V c main_v26) (funext fun a => Fin.ext ?_)
    match a with
    | ⟨0, _⟩ => show win0_6.index t (0 : Fin 2) * 1 + 1 * 0 = 0; omega
    | ⟨1, _⟩ => show win0_6.index t (1 : Fin 2) * 128 + 1 * (j 1).val = win0_7.index t (1 : Fin 2) * 128 + 1 * (j 1).val; omega
  simp only [hA, hX, hD, hW, hB, hWr, hBr]
  rfl

/-- An index of the array lies in point `t`'s block iff each coordinate lies in the block's range on its axis. -/
theorem fused_mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v27).slice (win0_7.rect t)).set ↔ _
  rw [View.set_slice_whole, Rect.mem_set_unit]
  exact Iff.rfl

/-- Every row block is some point's. -/
theorem fused_point_of_block : ∀ q0 : Fin 25, ∃ t : Fin cfg0.N, win0_7.index t = ![q0.val, 0] :=
  (by decide +kernel : ∀ q0 : Fin 25, ∃ t : Fin grid0.N, win0_7.index t = ![q0.val, 0])

/-- The blocks tile the array: row `r` is in the block of point `r / 2000`. -/
theorem fused_cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := fused_point_of_block ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [fused_mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- After the region the output array is the fused layer of the arrays the region found. -/
theorem fused_final (c : Dev nD) :
    (dat0 V c).arrAt 7 cfg0.N = fusedFun (V c main_v22) (V c main_arg0) (V c main_v24) (V c main_arg3) (V c main_v25) (V c main_arg5) (V c main_v26) :=
  (dat0 V c).arrAt_eq_of_cover 7 _ (fun t _ => fused_flushed V c t) fused_cover

end Cert.KernelIdeal.Hand

end
-- ==== Proof.NormRegion.lean ====
/-
  The normalisation region, read as one function of whole arrays.

  The region walks the rows of a [50000, 128] array in 25 blocks of 2000 rows; the four [1, 128] operands (the column
  mean, the column variance, the scale and the shift) are the same block at every point.  At row `r` and column `j` the
  body stores `(y[r, j] - mean[0, j]) * rsqrt (var[0, j] + ε) * scale[0, j] + shift[0, j]`: each row operand is read
  at the entry's own column.  Block `t` of the output is rows `2000 t … 2000 t + 1999`, the blocks tile the array, so
  after the region the output array is that function of the five arrays the region found, index by index.
-/
import proofs.«123874_j30210799960859_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The normalisation of one entry: the entry minus its column's mean, times the reciprocal root of the column's
    variance plus ε, times the column's scale, plus the column's shift. -/
def bnFun (Y : S50000x128.Idx → EReal) (M Va Ga Be : S1x128.Idx → EReal) : S50000x128.Idx → EReal :=
  fun i => (Y i - M (ix2 (0 : Fin 1) (⟨(i 1).val, (i 1).isLt⟩ : Fin 128))) * Ideal.rsqrt (Va (ix2 (0 : Fin 1) (⟨(i 1).val, (i 1).isLt⟩ : Fin 128)) + Ideal.ofBits .f32 0x3727C5AC#32)
    * Ga (ix2 (0 : Fin 1) (⟨(i 1).val, (i 1).isLt⟩ : Fin 128)) + Be (ix2 (0 : Fin 1) (⟨(i 1).val, (i 1).isLt⟩ : Fin 128))

/-- The normalisation at row `r` and column `q`. -/
theorem bnFun_apply (Y : S50000x128.Idx → EReal) (M Va Ga Be : S1x128.Idx → EReal) (r : Fin 50000) (q : Fin 128) :
    bnFun Y M Va Ga Be (ix2 r q) = (Y (ix2 r q) - M (ix2 (0 : Fin 1) q)) * Ideal.rsqrt (Va (ix2 (0 : Fin 1) q) + Ideal.ofBits .f32 0x3727C5AC#32)
      * Ga (ix2 (0 : Fin 1) q) + Be (ix2 (0 : Fin 1) q) := rfl

/-- The body's arithmetic at one entry of a block: the row operands are read at the entry's column. -/
theorem bn_payload_apply (x0 : Vec Ideal S2000x128 .f32) (x1 x2 x3 x4 : Vec Ideal S1x128 .f32) (p : Fin 2000) (q : Fin 128) :
    k1_pay1 x0 x1 x2 x3 x4 (ix2 p q) = (x0 (ix2 p q) - x1 (ix2 (0 : Fin 1) q)) * Ideal.rsqrt (x2 (ix2 (0 : Fin 1) q) + Ideal.ofBits .f32 0x3727C5AC#32)
      * x3 (ix2 (0 : Fin 1) q) + x4 (ix2 (0 : Fin 1) q) := by
  unfold k1_pay1
  simp only [shapeCast_self]
  simp only [addf_apply, mulf_apply, subf_apply]
  rw [broadcastTo_1b_ab_apply, broadcastTo_1b_ab_apply, broadcastTo_1b_ab_apply, broadcastTo_1b_ab_apply]
  rfl

/-- What the body leaves in the output's staging buffer, at one entry. -/
theorem bn_out_apply (x0 : Vec Ideal S2000x128 .f32) (x1 x2 x3 x4 : Vec Ideal S1x128 .f32) (j : S2000x128.Idx) :
    out1_5 x0 x1 x2 x3 x4 j = (x0 j - x1 (ix2 (0 : Fin 1) (⟨(j 1).val, (j 1).isLt⟩ : Fin 128))) * Ideal.rsqrt (x2 (ix2 (0 : Fin 1) (⟨(j 1).val, (j 1).isLt⟩ : Fin 128)) + Ideal.ofBits .f32 0x3727C5AC#32)
      * x3 (ix2 (0 : Fin 1) (⟨(j 1).val, (j 1).isLt⟩ : Fin 128)) + x4 (ix2 (0 : Fin 1) (⟨(j 1).val, (j 1).isLt⟩ : Fin 128)) := by
  unfold out1_5
  rw [View.canon_unit_zero zero_offsets]
  simp only [View.ld_unit_zero (S := S2000x128) zero_offsets, View.ld_unit_zero (S := S1x128) zero_offsets]
  obtain ⟨p, q, rfl⟩ : ∃ (p : Fin 2000) (q : Fin 128), j = ix2 p q := ⟨j 0, j 1, eq_ix2 j⟩
  exact bn_payload_apply x0 x1 x2 x3 x4 p q

/-- The printed index maps over the grid: the row-blocked windows sit at block `(t, 0)`, the row operands at `(0, 0)`. -/
theorem bn_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the normalisation of the arrays the region found. -/
theorem bn_flushed (c : Dev nD) (t : Fin cfg1.N) :
    (dat1 V c).flushed 5 t = ((cfg1.win 5).blk t).view.read (Elt Ideal) (bnFun (V c main_v27) (V c main_v38) (V c main_v39) (V c main_v40) (V c main_v41)) := by
  show (cfg1.win 5).cut (grid1.coords t) ((dat1 V c).after 5 t) = _
  rw [after1_5]
  obtain ⟨a0, a1, b0, b1, c0, c1, d0, d1, e0, e1, f0, f1⟩ := bn_index_facts t
  funext j
  show out1_5 (iblk1 V c 0 t) (iblk1 V c 1 t) (iblk1 V c 2 t) (iblk1 V c 3 t) (iblk1 V c 4 t) j = bnFun (V c main_v27) (V c main_v38) (V c main_v39) (V c main_v40) (V c main_v41) (((cfg1.win 5).blk t).view.emb j)
  refine (bn_out_apply (iblk1 V c 0 t) (iblk1 V c 1 t) (iblk1 V c 2 t) (iblk1 V c 3 t) (iblk1 V c 4 t) j).trans ?_
  have hY : iblk1 V c 0 t j = V c main_v27 (((cfg1.win 5).blk t).view.emb j) := by
    unfold iblk1
    rw [View.read_apply]
    show V c main_v27 (((cfg1.win 0).blk t).view.emb j) = V c main_v27 (((cfg1.win 5).blk t).view.emb j)
    refine congrArg (V c main_v27) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have hM : iblk1 V c 1 t (ix2 (0 : Fin 1) (⟨(j 1).val, (j 1).isLt⟩ : Fin 128)) = V c main_v38 (ix2 (0 : Fin 1) (⟨((((cfg1.win 5).blk t).view.emb j) 1).val, ((((cfg1.win 5).blk t).view.emb j) 1).isLt⟩ : Fin 128)) := by
    unfold iblk1
    rw [View.read_apply]
    show V c main_v38 (((cfg1.win 1).blk t).view.emb (ix2 (0 : Fin 1) (⟨(j 1).val, (j 1).isLt⟩ : Fin 128))) = _
    refine congrArg (V c main_v38) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have hVa : iblk1 V c 2 t (ix2 (0 : Fin 1) (⟨(j 1).val, (j 1).isLt⟩ : Fin 128)) = V c main_v39 (ix2 (0 : Fin 1) (⟨((((cfg1.win 5).blk t).view.emb j) 1).val, ((((cfg1.win 5).blk t).view.emb j) 1).isLt⟩ : Fin 128)) := by
    unfold iblk1
    rw [View.read_apply]
    show V c main_v39 (((cfg1.win 2).blk t).view.emb (ix2 (0 : Fin 1) (⟨(j 1).val, (j 1).isLt⟩ : Fin 128))) = _
    refine congrArg (V c main_v39) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have hGa : iblk1 V c 3 t (ix2 (0 : Fin 1) (⟨(j 1).val, (j 1).isLt⟩ : Fin 128)) = V c main_v40 (ix2 (0 : Fin 1) (⟨((((cfg1.win 5).blk t).view.emb j) 1).val, ((((cfg1.win 5).blk t).view.emb j) 1).isLt⟩ : Fin 128)) := by
    unfold iblk1
    rw [View.read_apply]
    show V c main_v40 (((cfg1.win 3).blk t).view.emb (ix2 (0 : Fin 1) (⟨(j 1).val, (j 1).isLt⟩ : Fin 128))) = _
    refine congrArg (V c main_v40) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have hBe : iblk1 V c 4 t (ix2 (0 : Fin 1) (⟨(j 1).val, (j 1).isLt⟩ : Fin 128)) = V c main_v41 (ix2 (0 : Fin 1) (⟨((((cfg1.win 5).blk t).view.emb j) 1).val, ((((cfg1.win 5).blk t).view.emb j) 1).isLt⟩ : Fin 128)) := by
    unfold iblk1
    rw [View.read_apply]
    show V c main_v41 (((cfg1.win 4).blk t).view.emb (ix2 (0 : Fin 1) (⟨(j 1).val, (j 1).isLt⟩ : Fin 128))) = _
    refine congrArg (V c main_v41) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [hY, hM, hVa, hGa, hBe]
  rfl

/-- An index of the array lies in point `t`'s block iff each coordinate lies in the block's range on its axis. -/
theorem bn_mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- Every row block is some point's. -/
theorem bn_point_of_block : ∀ q0 : Fin 25, ∃ t : Fin cfg1.N, win1_5.index t = ![q0.val, 0] :=
  (by decide +kernel : ∀ q0 : Fin 25, ∃ t : Fin grid1.N, win1_5.index t = ![q0.val, 0])

/-- The blocks tile the array: row `r` is in the block of point `r / 2000`. -/
theorem bn_cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := bn_point_of_block ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [bn_mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the region the output array is the normalisation of the arrays the region found. -/
theorem bn_final (c : Dev nD) :
    (dat1 V c).arrAt 5 cfg1.N = bnFun (V c main_v27) (V c main_v38) (V c main_v39) (V c main_v40) (V c main_v41) :=
  (dat1 V c).arrAt_eq_of_cover 5 _ (fun t _ => bn_flushed V c t) bn_cover

end Cert.KernelIdeal.Hand

end
-- ==== Proof.Bridge.lean ====
/-
  The reference's stages, read index by index, are the two region functions.

  The reference multiplies the aggregated messages by the reciprocal root of the in-degree broadcast along the rows,
  contracts with the first weight matrix, adds the bias broadcast along the columns, clamps at zero, does the same with
  the features and the second weight matrix, and adds the two: at row `r` and column `j` this is the fused region's entry,
  the column of reciprocal roots and the bias rows being the same numbers laid out as `[50000, 1]` and `[1, 128]`.
  It then subtracts the column mean, multiplies by the reciprocal root of the column variance plus ε, by the scale, and
  adds the shift, each a `[128]` vector broadcast along the columns: the normalisation region's entry with the same
  vectors laid out as `[1, 128]` rows.  No law of arithmetic is used: the two sides are the same expression entry by entry.
  Both facts are stated over arbitrary arrays in place of the aggregated messages, the degree vector and the layer's
  output, which the two programs compute by the same host operations.
-/
import proofs.«123874_j30210799960859_2_alg».proof.Proof.FusedRegion
import proofs.«123874_j30210799960859_2_alg».proof.Proof.NormRegion
import proofs.«123874_j30210799960859_2_alg».proof.Proof.Gen.ReferenceIdeal.Read

set_option maxRecDepth 16384

noncomputable section

open Idealize.ShloMosaic Idealize.ShloMosaic.TcCoe Idealize.SL.Sem
open Idealize.ShloMosaic.ValueIdx

namespace Cert.ReferenceIdeal.Bridge

open Cert.ReferenceIdeal Cert.ReferenceIdeal.Gen Cert.ReferenceIdeal.Read
open Cert.KernelIdeal.Hand (fusedFun bnFun fusedFun_apply bnFun_apply)

/-! ## Layout operations and the contraction, read at an entry -/

/-- A vector laid out as a column reads, at `(i, 0)`, its entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[128]` vector broadcast along the columns of a `[50000, 128]` array reads, at `(r, q)`, its entry `q`. -/
theorem row_bcast_apply (v : FVec Ideal S128 .f32) (r : Fin 50000) (q : Fin 128) :
    broadcastInDim S50000x128 ![0, 1] bcast_S1x128_S50000x128_0_1 (broadcastInDim S1x128 ![1] bcast_S128_S1x128_1 v) (ix2 r q) = v (ix1 q) := by
  rw [broadcastInDim_apply _ bcast_S1x128_S50000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ bcast_S128_S1x128_1 v (ix2 (0 : Fin 1) q) (ix1 q) (fun a => match a with
      | ⟨0, _⟩ => by show q.val = if (128 : Nat) = 1 then 0 else q.val; rw [if_neg (by decide)])]

/-- A `[50000]` vector broadcast along the rows of a `[50000, 128]` array reads, at `(r, q)`, its entry `r`. -/
theorem col_bcast_apply (v : FVec Ideal S50000 .f32) (r : Fin 50000) (q : Fin 128) :
    broadcastInDim S50000x128 ![0, 1] bcast_S50000x1_S50000x128_0_1 (broadcastInDim S50000x1 ![0] bcast_S50000_S50000x1_0 v) (ix2 r q) = v (ix1 r) := by
  rw [broadcastInDim_apply _ bcast_S50000x1_S50000x128_0_1 _ (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl]),
    broadcastInDim_apply _ bcast_S50000_S50000x1_0 v (ix2 r (0 : Fin 1)) (ix1 r) (fun a => match a with
      | ⟨0, _⟩ => by show r.val = if (50000 : Nat) = 1 then 0 else r.val; rw [if_neg (by decide)])]

/-- The same broadcast as a function of the entry. -/
theorem col_bcast_fun (v : FVec Ideal S50000 .f32) :
    broadcastInDim S50000x128 ![0, 1] bcast_S50000x1_S50000x128_0_1 (broadcastInDim S50000x1 ![0] bcast_S50000_S50000x1_0 v)
      = fun i => v (ix1 (⟨(i 0).val, (i 0).isLt⟩ : Fin 50000)) := by
  funext i
  obtain ⟨r, q, rfl⟩ : ∃ (r : Fin 50000) (q : Fin 128), i = ix2 r q := ⟨i 0, i 1, eq_ix2 i⟩
  exact col_bcast_apply v r q

/-- A scalar broadcast over a `[50000, 128]` array reads the scalar everywhere. -/
theorem scalar_bcast_apply (v : FVec Ideal S_ .f32) (i : S50000x128.Idx) :
    broadcastInDim S50000x128 ![] bcast_S_S50000x128 v i = v ix0 :=
  broadcastInDim_apply _ bcast_S_S50000x128 v i ix0 (fun a => a.elim0)

/-- A scalar broadcast over a `[128]` vector reads the scalar everywhere. -/
theorem scalar_bcast128_apply (v : FVec Ideal S_ .f32) (i : S128.Idx) :
    broadcastInDim S128 ![] bcast_S_S128 v i = v ix0 :=
  broadcastInDim_apply _ bcast_S_S128 v i ix0 (fun a => a.elim0)

/-- The whole-array contraction at one entry: the sum over the contracted axis. -/
theorem contraction_apply (l : FVec Ideal S50000x128 .f32) (w : FVec Ideal S128x128 .f32) (r : Fin 50000) (q : Fin 128) :
    Host.dotGeneral dot_S50000x128_S128x128_S50000x128_1_0_0_1_n_n none l w (ix2 r q) = ∑ k : Fin 128, l (ix2 r k) * w (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact lhs_main_v27_0 _ _
    | ⟨1, _⟩ => exact (lhs_main_v27_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rhs_main_v27_0 _ _).trans hk
    | ⟨1, _⟩ => exact rhs_main_v27_1 _ _)
  rw [el, er]

/-! ## The layer -/

/-- The reference's layer as a function of the aggregated messages `A`, the reciprocal roots of the in-degrees `Dv`,
    the features, the two weight matrices and the two biases. -/
def layerRef (A : FVec Ideal S50000x128 .f32) (Dv : FVec Ideal S50000 .f32) (x0 : FVec Ideal S50000x128 .f32)
    (x3 : FVec Ideal S128x128 .f32) (x4 : FVec Ideal S128 .f32) (x5 : FVec Ideal S128x128 .f32) (x6 : FVec Ideal S128 .f32) : FVec Ideal S50000x128 .f32 :=
  addf
    (maximumf
      (addf (Host.dotGeneral dot_S50000x128_S128x128_S50000x128_1_0_0_1_n_n none
          (mulf A (broadcastInDim S50000x128 ![0, 1] bcast_S50000x1_S50000x128_0_1 (broadcastInDim S50000x1 ![0] bcast_S50000_S50000x1_0 Dv))) x3)
        (broadcastInDim S50000x128 ![0, 1] bcast_S1x128_S50000x128_0_1 (broadcastInDim S1x128 ![1] bcast_S128_S1x128_1 x4)))
      (broadcastInDim S50000x128 ![] bcast_S_S50000x128 (constant S_ .f32 0x00000000#32)))
    (maximumf
      (addf (Host.dotGeneral dot_S50000x128_S128x128_S50000x128_1_0_0_1_n_n none x0 x5)
        (broadcastInDim S50000x128 ![0, 1] bcast_S1x128_S50000x128_0_1 (broadcastInDim S1x128 ![1] bcast_S128_S1x128_1 x6)))
      (broadcastInDim S50000x128 ![] bcast_S_S50000x128 (constant S_ .f32 0x00000000#32)))

/-- The reference's layer stage is that function of its own aggregated messages and degree vector. -/
theorem layerRef_eq (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v37 (F := Ideal) x0 x1 x2 x3 x4 x5 x6 = layerRef (val_main_v22 (F := Ideal) x0 x1 x2) (val_main_v23 (F := Ideal) x2) x0 x3 x4 x5 x6 := rfl

/-- The fused region's function, with the degree vector laid out as a column and the biases as rows, is the
    reference's layer. -/
theorem fused_eq (A : FVec Ideal S50000x128 .f32) (Dv : FVec Ideal S50000 .f32) (x0 : FVec Ideal S50000x128 .f32)
    (x3 : FVec Ideal S128x128 .f32) (x4 : FVec Ideal S128 .f32) (x5 : FVec Ideal S128x128 .f32) (x6 : FVec Ideal S128 .f32)
    (hc : S50000.ShapeCasts S50000x1) (hr : S128.ShapeCasts S1x128) :
    fusedFun A x0 (shapeCast S50000x1 Dv hc) x3 (shapeCast S1x128 x4 hr) x5 (shapeCast S1x128 x6 hr) = layerRef A Dv x0 x3 x4 x5 x6 := by
  funext i
  obtain ⟨r, q, rfl⟩ : ∃ (r : Fin 50000) (q : Fin 128), i = ix2 r q := ⟨i 0, i 1, eq_ix2 i⟩
  rw [fusedFun_apply]
  unfold layerRef
  rw [col_bcast_fun]
  simp only [addf_apply, maximumf_apply, contraction_apply, mulf_apply, shapeCast_a_a1_apply, shapeCast_a_1a_apply]
  rw [row_bcast_apply x4 r q, row_bcast_apply x6 r q, scalar_bcast_apply]
  rfl

/-! ## The normalisation -/

/-- The reference's column mean of a `[50000, 128]` array. -/
def meanRef (Y : FVec Ideal S50000x128 .f32) : FVec Ideal S128 .f32 :=
  Host.divf (Host.reduceAdd Y (constant S_ .f32 0x00000000#32) reducesTo_S50000x128_S128_d0 h_S_)
    (broadcastInDim S128 ![] bcast_S_S128 (constant S_ .f32 0x47435000#32))

/-- The reference's column variance of a `[50000, 128]` array. -/
def varRef (Y : FVec Ideal S50000x128 .f32) : FVec Ideal S128 .f32 :=
  Host.divf (Host.reduceAdd
      (mulf (subf Y (broadcastInDim S50000x128 ![0, 1] bcast_S1x128_S50000x128_0_1 (broadcastInDim S1x128 ![1] bcast_S128_S1x128_1 (meanRef Y))))
            (subf Y (broadcastInDim S50000x128 ![0, 1] bcast_S1x128_S50000x128_0_1 (broadcastInDim S1x128 ![1] bcast_S128_S1x128_1 (meanRef Y)))))
      (constant S_ .f32 0x00000000#32) reducesTo_S50000x128_S128_d0 h_S_)
    (broadcastInDim S128 ![] bcast_S_S128 (constant S_ .f32 0x47435000#32))

/-- The reference's normalisation of an array `Y` by a mean vector `Mn`, a variance vector `Vr`, the scale and the shift. -/
def normRef (Y : FVec Ideal S50000x128 .f32) (Mn Vr x7 x8 : FVec Ideal S128 .f32) : FVec Ideal S50000x128 .f32 :=
  addf
    (mulf
      (mulf (subf Y (broadcastInDim S50000x128 ![0, 1] bcast_S1x128_S50000x128_0_1 (broadcastInDim S1x128 ![1] bcast_S128_S1x128_1 Mn)))
        (broadcastInDim S50000x128 ![0, 1] bcast_S1x128_S50000x128_0_1 (broadcastInDim S1x128 ![1] bcast_S128_S1x128_1
          (Host.rsqrt (addf Vr (broadcastInDim S128 ![] bcast_S_S128 (constant S_ .f32 0x3727C5AC#32)))))))
      (broadcastInDim S50000x128 ![0, 1] bcast_S1x128_S50000x128_0_1 (broadcastInDim S1x128 ![1] bcast_S128_S1x128_1 x7)))
    (broadcastInDim S50000x128 ![0, 1] bcast_S1x128_S50000x128_0_1 (broadcastInDim S1x128 ![1] bcast_S128_S1x128_1 x8))

/-- The reference's last stage is the normalisation of its layer stage by that stage's own column mean and variance. -/
theorem normRef_eq (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 x8 : (⟨S128, .f32⟩ : BufTy).Contents (Elt Ideal)) :
    val_main_v62 (F := Ideal) x0 x1 x2 x3 x4 x5 x6 x7 x8
      = normRef (val_main_v37 (F := Ideal) x0 x1 x2 x3 x4 x5 x6) (meanRef (val_main_v37 (F := Ideal) x0 x1 x2 x3 x4 x5 x6))
          (varRef (val_main_v37 (F := Ideal) x0 x1 x2 x3 x4 x5 x6)) x7 x8 := rfl

/-- The normalisation region's function, with the four vectors laid out as rows, is the reference's normalisation. -/
theorem bn_eq (Y : FVec Ideal S50000x128 .f32) (Mn Vr x7 x8 : FVec Ideal S128 .f32) (hr : S128.ShapeCasts S1x128) :
    bnFun Y (shapeCast S1x128 Mn hr) (shapeCast S1x128 Vr hr) (shapeCast S1x128 x7 hr) (shapeCast S1x128 x8 hr) = normRef Y Mn Vr x7 x8 := by
  funext i
  obtain ⟨r, q, rfl⟩ : ∃ (r : Fin 50000) (q : Fin 128), i = ix2 r q := ⟨i 0, i 1, eq_ix2 i⟩
  rw [bnFun_apply]
  unfold normRef
  simp only [addf_apply, mulf_apply, subf_apply, shapeCast_a_1a_apply]
  rw [row_bcast_apply Mn r q, row_bcast_apply x7 r q, row_bcast_apply x8 r q, row_bcast_apply _ r q]
  rfl

end Cert.ReferenceIdeal.Bridge

end
-- ==== Proof.KernelValue.lean ====
/-
  The idealized kernel's result, as the reference's last stage of the argument arrays.

  After the run the result buffer holds what the normalisation region leaves in its output array: the normalisation of
  the first region's output by that output's own column mean and variance and by the scale and the shift.  The first
  region's output is the fused layer of the aggregated messages, the features, the in-degree column, the weights and
  the biases, all of them host terms of the argument arrays that the reference computes in the same way.  Stage by
  stage this is the reference's composed term.
-/
import proofs.«123874_j30210799960859_2_alg».proof.Proof.KernelRun
import proofs.«123874_j30210799960859_2_alg».proof.Proof.HostReads
import proofs.«123874_j30210799960859_2_alg».proof.Proof.FusedRegion
import proofs.«123874_j30210799960859_2_alg».proof.Proof.NormRegion
import proofs.«123874_j30210799960859_2_alg».proof.Proof.Bridge

set_option maxRecDepth 16384

noncomputable section

open Idealize.ShloMosaic Idealize.ShloMosaic.TcCoe Idealize.SL.Sem

namespace Cert.KernelIdeal.Hand

open Cert.KernelIdeal Cert.KernelIdeal.Gen

/-- The two programs compute the column mean and the column variance by the same operations. -/
theorem colMean_ref (Y : FVec Ideal S50000x128 .f32) : colMean Y = Cert.ReferenceIdeal.Bridge.meanRef Y := rfl
theorem colVar_ref (Y : FVec Ideal S50000x128 .f32) : colVar Y = Cert.ReferenceIdeal.Bridge.varRef Y := rfl

variable (m : (ℓ : Loc nD τ sig) → Buf (Elt Ideal) ℓ) (ρ : Dev nD → PrngReg)

/-- Between the regions the first region's output array holds the reference's layer output. -/
theorem layer_value (c : Dev nD) :
    W6 m ρ c (Proc.devRef .tc main_v27) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 7).trans ?_
  rw [fused_final (V5 m ρ) c]
  show fusedFun (W5 m ρ c (Proc.devRef .tc main_v22)) (W5 m ρ c (Proc.devRef .tc main_arg0)) (W5 m ρ c (Proc.devRef .tc main_v24)) (W5 m ρ c (Proc.devRef .tc main_arg3))
    (W5 m ρ c (Proc.devRef .tc main_v25)) (W5 m ρ c (Proc.devRef .tc main_arg5)) (W5 m ρ c (Proc.devRef .tc main_v26)) = _
  rw [entry0_agg, entry0_feat, entry0_dinv, entry0_w, entry0_bias, entry0_wr, entry0_rbias, Cert.ReferenceIdeal.Bridge.layerRef_eq]
  exact Cert.ReferenceIdeal.Bridge.fused_eq _ _ _ _ _ _ _ _ _

/-- After the run the result array holds the reference's last stage. -/
theorem result_value (c : Dev nD) :
    W8 m ρ c (Proc.devRef .tc main_v42) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 5).trans ?_
  rw [bn_final (V7 m ρ) c]
  show bnFun (W7 m ρ c (Proc.devRef .tc main_v27)) (W7 m ρ c (Proc.devRef .tc main_v38)) (W7 m ρ c (Proc.devRef .tc main_v39))
    (W7 m ρ c (Proc.devRef .tc main_v40)) (W7 m ρ c (Proc.devRef .tc main_v41)) = _
  rw [entry1_y, entry1_mean, entry1_var, entry1_scale, entry1_shift, mid_scale, mid_shift, colMean_ref, colVar_ref,
    Cert.ReferenceIdeal.Bridge.normRef_eq, ← layer_value m ρ c]
  exact Cert.ReferenceIdeal.Bridge.bn_eq _ _ _ _ _ _

/-- Every weakly fair execution of the idealized kernel terminates without a fault, with the result array at the
    reference's last stage of the argument arrays and the argument arrays as launched. -/
theorem run_value : θ_run defs (onTc (τ := τ) (main (F := Ideal))) ⟨m, fun _ => 0, ρ⟩ (fun r => ∀ c : Dev nD,
      r.2.mem ((c.tc : Thread nD τ).loc main_v42) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ c), (h c).2⟩) (run_result m ρ)

end Cert.KernelIdeal.Hand

end
-- ==== Proof.lean ====
/-
  A residual graph-convolution layer followed by a batch normalisation, as a Pallas kernel and as plain jnp.

  Both programs compute, on the host and with the same operations, the clamped out- and in-degrees of the nodes, the
  features scaled by the reciprocal root of the out-degree, gathered along the source indices and summed onto the
  destination indices, and the reciprocal root of the in-degree.  The kernel then runs one region over 25 blocks of
  2000 rows that rescales the aggregated rows, multiplies them by the first weight matrix, adds the bias, clamps at
  zero, does the same with the features and the second weight matrix and adds the two; it computes the column mean and
  variance of the result on the host; and it runs a second region over the same blocks that subtracts the mean,
  multiplies by the reciprocal root of the variance plus ε, by the scale, and adds the shift.  The reference does all of
  this with whole-array operations.

  On exact extended reals the two agree entry by entry without any law of arithmetic: a block product into a zero
  accumulator is the plain sum over the contracted axis, which is what the whole-array contraction is at that entry; a
  `[50000]` or `[128]` vector broadcast along rows or columns holds the same numbers as the same vector laid out as a
  `[50000, 1]` column or a `[1, 128]` row and read through a block; and the row blocks tile the arrays.  The
  precondition (finite inputs) is therefore not used.  The idealization rewrote nothing, so the kernel and its
  idealization are the same text and the preservation claim is trivial.
-/
import proofs.«123874_j30210799960859_2_alg».proof.Defs
import proofs.«123874_j30210799960859_2_alg».proof.Proof.Gen.Kernel
import proofs.«123874_j30210799960859_2_alg».proof.Proof.Gen.Kernel.Skeleton
import proofs.«123874_j30210799960859_2_alg».proof.Proof.Gen.Kernel.Launch
import proofs.«123874_j30210799960859_2_alg».proof.Proof.Gen.Kernel.Points
import proofs.«123874_j30210799960859_2_alg».proof.Proof.Gen.Kernel.Frame
import proofs.«123874_j30210799960859_2_alg».proof.Proof.Gen.KernelIdeal
import proofs.«123874_j30210799960859_2_alg».proof.Proof.Gen.KernelIdeal.Skeleton
import proofs.«123874_j30210799960859_2_alg».proof.Proof.Gen.KernelIdeal.Launch
import proofs.«123874_j30210799960859_2_alg».proof.Proof.Gen.KernelIdeal.Points
import proofs.«123874_j30210799960859_2_alg».proof.Proof.Gen.KernelIdeal.Frame
import proofs.«123874_j30210799960859_2_alg».proof.Proof.Gen.ReferenceIdeal
import proofs.«123874_j30210799960859_2_alg».proof.Proof.Gen.ReferenceIdeal.Run
import proofs.«123874_j30210799960859_2_alg».proof.Proof.Gen.ReferenceIdeal.Read
import proofs.«123874_j30210799960859_2_alg».proof.Proof.Gen.Pre_finite_inputs
import proofs.«123874_j30210799960859_2_alg».proof.Proof.KernelValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- The idealized kernel runs, and leaves its arguments as launched. -/
theorem frame_kernel_ideal : Cert.frame_KernelIdeal := fun m ρ _ => Cert.KernelIdeal.Gen.frame m ρ

/-- The idealized reference runs, and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the reference's last stage of the
    arguments in their result arrays. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v62_eq m' c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
